-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel

variable [Facts]

def fn {F : FTy → Type} [FloatOps F] (main_arg0 : FVec F S8x512x64x64 .f32) (main_arg1 : FVec F S8x512x64x64 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S8x512x64x64 .f32 := Host.absf main_arg1
  let main_cst_0 : FVec F S_ .f32 := constant S_ .f32 0x7F800000#32
  let main_v5 : FVec F S8x512x64x64 .f32 := broadcastInDim S8x512x64x64 ![] bcast_S_S8x512x64x64 main_cst_0
  let main_v6 : IVec S8x512x64x64 1 := cmpf .olt main_v4 main_v5
  let main_c_1 : IVec S_ 1 := constantI S_ 1 1#1
  let main_v7 : IVec S_ 1 := (fun x v => Host.reduce IntOp.andi x v reducesTo_S8x512x64x64_S_d0_1_2_3 h_S_) main_v6 main_c_1
  let main_v8 : IVec S_ 1 := andi main_v3 main_v7
  main_v8
-- ==== Kernel.lean ====
abbrev S8x512x64x64 : Shape := ⟨4, ![8, 512, 64, 64]⟩
abbrev S8x512x4096 : Shape := ⟨3, ![8, 512, 4096]⟩
abbrev S1x512x4096 : Shape := ⟨3, ![1, 512, 4096]⟩
abbrev S1x512x1024 : Shape := ⟨3, ![1, 512, 1024]⟩
abbrev S512x512 : Shape := ⟨2, ![512, 512]⟩
abbrev S512x4096 : Shape := ⟨2, ![512, 4096]⟩
abbrev S512 : Shape := ⟨1, ![512]⟩
abbrev S1x512 : Shape := ⟨2, ![1, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8x512x64x64, .f32⟩
  | .hbm, ⟨1, _⟩ => ⟨S8x512x64x64, .f32⟩
  | .hbm, ⟨2, _⟩ => ⟨S8x512x4096, .f32⟩
  | .hbm, ⟨3, _⟩ => ⟨S8x512x4096, .f32⟩
  | .hbm, ⟨4, _⟩ => ⟨S8x512x4096, .f32⟩
  | .hbm, ⟨5, _⟩ => ⟨S8x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x512, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x512x64x64_S8x512x4096 : S8x512x64x64.ShapeCasts S8x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  reduces_S512x512_S512 : S512x512.Reduces [0] S512
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S8x512x4096_S8x512x64x64 : S8x512x4096.ShapeCasts S8x512x64x64
  dot_S512x4096_S512x4096_S512x512_1_1_0_0_n_n_wf : DotDims.WF S512x4096 S512x4096 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .f32 = 32 ∨ (Rect.block (s := S8x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x4096.size a
  hwx0_1 : ∀ i : grid0.Coords, EltTy.bits .f32 = 32 ∨ (Rect.block (s := S8x512x4096) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x512x4096.size a
  hwx0_2 : ∀ i : grid0.Coords, EltTy.bits .f32 = 32 ∨ (Rect.block (s := S8x512x4096) S1x512x1024.size (cc0_transform_2 i) (hinb0_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x64x64 : Shape := ⟨4, ![8, 512, 64, 64]⟩
abbrev S8x512x4096 : Shape := ⟨3, ![8, 512, 4096]⟩
abbrev S8x512x512 : Shape := ⟨3, ![8, 512, 512]⟩
abbrev S_ : Shape := ⟨0, ![]⟩
abbrev S8x512 : Shape := ⟨2, ![8, 512]⟩
abbrev S8x1x512 : Shape := ⟨3, ![8, 1, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x512x64x64, .f32⟩
  | .hbm, ⟨1, _⟩ => ⟨S8x512x64x64, .f32⟩
  | .hbm, ⟨2, _⟩ => ⟨S8x512x4096, .f32⟩
  | .hbm, ⟨3, _⟩ => ⟨S8x512x4096, .f32⟩
  | .hbm, ⟨4, _⟩ => ⟨S8x512x512, .f32⟩
  | .hbm, ⟨5, _⟩ => ⟨S_, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S8x1x512, .f32⟩
  | .hbm, ⟨11, _⟩ => ⟨S8x512x512, .f32⟩
  | .hbm, ⟨12, _⟩ => ⟨S8x512x512, .f32⟩
  | .hbm, ⟨13, _⟩ => ⟨S8x512x512, .f32⟩
  | .hbm, ⟨14, _⟩ => ⟨S_, .f32⟩
  | .hbm, ⟨15, _⟩ => ⟨S8x512, .f32⟩
  | .hbm, ⟨16, _⟩ => ⟨S8x1x512, .f32⟩
  | .hbm, ⟨17, _⟩ => ⟨S8x512x512, .f32⟩
  | .hbm, ⟨18, _⟩ => ⟨S8x512x512, .f32⟩
  | .hbm, ⟨19, _⟩ => ⟨S8x512x4096, .f32⟩
  | .hbm, ⟨20, _⟩ => ⟨S_, .f32⟩
  | .hbm, ⟨21, _⟩ => ⟨S8x512x4096, .f32⟩
  | .hbm, ⟨22, _⟩ => ⟨S8x512x4096, .f32⟩
  | .hbm, ⟨23, _⟩ => ⟨S8x512x64x64, .f32⟩
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8x512x64x64_S8x512x4096 : S8x512x64x64.ShapeCasts S8x512x4096
  reducesTo_S8x512x512_S8x512_d1 : S8x512x512.ReducesTo [1] S8x512
  h_S_ : 0 < S_.numel
  bcast_S_S8x512 : S_.BroadcastsInDim S8x512 (![] : Fin 0 → Fin S8x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  bcast_S_S8x512x4096 : S_.BroadcastsInDim S8x512x4096 (![] : Fin 0 → Fin S8x512x4096.rank)
  shapeCasts_S8x512x4096_S8x512x64x64 : S8x512x4096.ShapeCasts S8x512x64x64
  dot_S8x512x4096_S8x512x4096_S8x512x512_2_2_1_1_0_0_wf : DotDims.WF S8x512x4096 S8x512x4096 S8x512x512 [2] [2] [1] [1] [0] [0]
  dot_S8x512x512_S8x512x4096_S8x512x4096_2_1_1_2_0_0_wf : DotDims.WF S8x512x512 S8x512x4096 S8x512x4096 [2] [1] [1] [2] [0] [0]

variable [Facts₀]

def dot_S8x512x4096_S8x512x4096_S8x512x512_2_2_1_1_0_0 : DotDims S8x512x4096 S8x512x4096 S8x512x512 where
  lhsContracting := [2]
  rhsContracting := [2]
  lhsNonContracting := [1]
  rhsNonContracting := [1]
  lhsBatch := [0]
  rhsBatch := [0]
  wf := dot_S8x512x4096_S8x512x4096_S8x512x512_2_2_1_1_0_0_wf
def dot_S8x512x512_S8x512x4096_S8x512x4096_2_1_1_2_0_0 : DotDims S8x512x512 S8x512x4096 S8x512x4096 where
  lhsContracting := [2]
  rhsContracting := [1]
  lhsNonContracting := [1]
  rhsNonContracting := [2]
  lhsBatch := [0]
  rhsBatch := [0]
  wf := dot_S8x512x512_S8x512x4096_S8x512x4096_2_1_1_2_0_0_wf

class Facts : Prop extends Facts₀ where

variable [Facts]
-- ==== Proof.Spec.lean ====
/-
  The function both programs compute, on the extended reals.

  For one batch entry, with `a` its source matrix (channels by positions) and `d` its destination matrix:
  the Gram matrix `g i j = Σ_k a i k · a j k`; each COLUMN `j` of it is normalised over the row index `i` —
  its maximum `μ j` (taken from −∞), the exponentials `e i j = exp (g i j − μ j)`, their sum `σ j = Σ_i e i j`, the
  quotient `p i j = e i j / σ j` —; and the result is `Σ_j p i j · d j n`, times the constant one.
  The constants stay the words both programs print; none is evaluated here.
-/
import Idealize.ShloMosaic.PureOps.Ideal
import Idealize.ShloMosaic.Lib.ValueIdx

noncomputable section

open scoped BigOperators

namespace Cert.Spec

open Idealize.ShloMosaic Idealize.ShloMosaic.ValueIdx

variable {C K : ℕ}

/-- The Gram matrix of the rows of `a`. -/
def gram (a : Fin C → Fin K → EReal) (i j : Fin C) : EReal := ∑ k : Fin K, a i k * a j k

/-- The maximum of column `j`, folded from −∞. -/
def colMax (g : Fin C → Fin C → EReal) (j : Fin C) : EReal :=
  (Finset.univ : Finset (Fin C)).fold max (Ideal.ofBits .f32 0xFF800000#32) (fun i => g i j)

/-- The exponential of an entry less its column's maximum. -/
def ex (g : Fin C → Fin C → EReal) (i j : Fin C) : EReal := Ideal.exp (g i j - colMax g j)

/-- The sum of column `j`'s exponentials. -/
def colSum (g : Fin C → Fin C → EReal) (j : Fin C) : EReal := ∑ i : Fin C, ex g i j

/-- The column-normalised weights of a source matrix. -/
def attn (a : Fin C → Fin K → EReal) (i j : Fin C) : EReal :=
  Ideal.div (ex (gram a) i j) (colSum (gram a) j)

/-- The flat arrays: batch, channel, position. -/
abbrev Flat : Shape := ⟨3, ![8, 512, 4096]⟩

/-- The result at batch `b`, channel `i`, position `n`. -/
def outAt (A D : Flat.Idx → EReal) (b : Fin 8) (i : Fin 512) (n : Fin 4096) : EReal :=
  (∑ j : Fin 512, attn (fun i k => A (ix3 b i k)) i j * D (ix3 b j n)) * Ideal.ofBits .f32 0x3F800000#32

/-- The whole result as one function of the two flat arrays. -/
def G (A D : Flat.Idx → EReal) : Flat.Idx → EReal := fun y => outAt A D (y 0) (y 1) (y 2)

theorem G_ix3 (A D : Flat.Idx → EReal) (b : Fin 8) (i : Fin 512) (n : Fin 4096) :
    G A D (ix3 b i n) = outAt A D b i n := rfl

end Cert.Spec

end
-- ==== Proof.Pieces.lean ====
/-
  What one run of the body leaves behind, as values.

  At the first position tile of a batch entry the body computes the weights from the whole source block, stores
  them in the carried buffer, reads them back and multiplies them into the destination tile; at the other tiles it
  only reads the carried buffer. So, with `W` the weights' term and `P` the product's term:
    first tile  : the carried buffer ends at `W src`, the output tile at `P (W src) dst`;
    other tiles : the carried buffer keeps its contents `w`, the output tile ends at `P w dst`.
  Each is the one covering store's payload, its loads reading whole buffers.
-/
import proofs.«105036_j75883482186328_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the carried buffer ends at the weights of the source block. -/
theorem carried_first (c : Dev nD) (i : grid0.Coords) (arg2 : Memref sig .tc .vmem S1x512x4096 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x512 .f32) (harg5 : arg5.IsWhole) (hc0 : cond0_0 i)
    (x0 : Vec F S1x512x4096 .f32) (x1 : Vec F S1x512x1024 .f32) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg2.read_unread, View.ld_unit_zero (S := S1x512x4096) hz3]

/-- First tile: the output tile ends at the product of those weights with the destination tile. -/
theorem tile_first (c : Dev nD) (i : grid0.Coords) (arg2 : Memref sig .tc .vmem S1x512x4096 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x512 .f32) (harg5 : arg5.IsWhole) (hc0 : cond0_0 i)
    (x0 : Vec F S1x512x4096 .f32) (x1 : Vec F S1x512x1024 .f32) :
    out0_A_2 c i arg2 harg2 arg3 harg3 arg4 harg4 arg5 harg5 hc0 x0 x1 = k0_pay2 (k0_pay1 x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero (S := S1x512x1024) hz3, View.readCov_unit_zero (S := S512x512) _ hz2]
  simp only [View.readAt_eq_ld, harg2.read_unread, harg3.read_unread, View.ld_unit_zero (S := S1x512x4096) hz3,
    View.ld_unit_zero (S := S1x512x1024) hz3]

/-- Other tiles: the output tile ends at the product of the carried weights with the destination tile. -/
theorem tile_later (c : Dev nD) (i : grid0.Coords) (arg2 : Memref sig .tc .vmem S1x512x4096 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x512 .f32) (harg5 : arg5.IsWhole) (hc0 : ¬cond0_0 i)
    (x0 : Vec F S1x512x4096 .f32) (x1 : Vec F S1x512x1024 .f32) (xs0 : Vec F S512x512 .f32) :
    out0_B_2 c i arg2 harg2 arg3 harg3 arg4 harg4 arg5 harg5 hc0 x0 x1 xs0 = k0_pay2 xs0 x1 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero (S := S1x512x1024) hz3]
  simp only [View.readAt_eq_ld, harg3.read_unread, harg5.read_unread, View.ld_unit_zero (S := S1x512x1024) hz3,
    View.ld_unit_zero (S := S512x512) hz2]

/-- Other tiles: the carried buffer keeps its contents. -/
theorem carried_later (c : Dev nD) (i : grid0.Coords) (arg2 : Memref sig .tc .vmem S1x512x4096 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x512 .f32) (harg5 : arg5.IsWhole) (hc0 : ¬cond0_0 i)
    (x0 : Vec F S1x512x4096 .f32) (x1 : Vec F S1x512x1024 .f32) (xs0 : Vec F S512x512 .f32) :
    sout0_B_0 c i arg2 harg2 arg3 harg3 arg4 harg4 arg5 harg5 hc0 x0 x1 xs0 = xs0 := rfl

end Cert.KernelIdeal.Pieces

end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Payload.lean ====
/-
  The body's two pure terms read at an index, on the extended reals.

  The weights' term: the source block, its leading unit axis dropped, multiplied with its own transpose (the
  Gram matrix); each column's maximum over the rows, kept as a row and broadcast back; the exponential of the
  difference; each column's sum likewise; the quotient. At `(i, j)` this is the column-normalised weight.
  The product's term: the carried weights times the destination tile, its unit axis dropped, times the constant one,
  the unit axis put back. At `(u, i, n)` this is `(Σ_j w (i, j) · dst (0, j, n)) · 1`.
  A change of float format is the identity here, and a product accumulated into zeros is the plain sum.
-/
import proofs.«105036_j75883482186328_2_alg».proof.Proof.Gen.KernelIdeal.Skeleton
import proofs.«105036_j75883482186328_2_alg».proof.Proof.Spec
import proofs.«105036_j75883482186328_2_alg».proof.Proof.LibDotT
import proofs.«105036_j75883482186328_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The maximum over the rows, at column `j`: the fold of `max` from −∞ over the column's entries. -/
theorem colMax_apply (g : FVec Ideal S512x512 .f32) (h : S512x512.Reduces [0] S512) (hφ : FKind.Formats .f32)
    (hacc : (0xFF800000#32 : BitVec 32) = FKind.maximumf.neutral .f32 hφ) (j : Fin 512) :
    multiReduction (F := Ideal) .maximumf [0] S512 g 0xFF800000#32 h hφ hacc (ix1 j)
      = Spec.colMax (fun i j => g (ix2 i j)) j := by
  refine (Ideal.multiReduction_maximumf_single g 0xFF800000#32 h hφ hacc (ix1 j)).trans ?_
  have e : (g ∘ h.lift (ix1 j)) = fun i : Fin 512 => g (ix2 i j) :=
    funext fun i => congrArg g (funext fun a => Fin.ext (by match a with | ⟨0, _⟩ => rfl | ⟨1, _⟩ => rfl))
  rw [e]; rfl

/-- The sum over the rows, at column `j`. -/
theorem colSum_apply (e : FVec Ideal S512x512 .f32) (h : S512x512.Reduces [0] S512) (hφ : FKind.Formats .f32)
    (hacc : (0x00000000#32 : BitVec 32) = FKind.add.neutral .f32 hφ) (j : Fin 512) :
    multiReduction (F := Ideal) .add [0] S512 e 0x00000000#32 h hφ hacc (ix1 j) = ∑ i : Fin 512, e (ix2 i j) := by
  refine (Ideal.multiReduction_add_single e 0x00000000#32 h hφ hacc (ix1 j)).trans ?_
  exact Finset.sum_congr rfl fun i _ =>
    congrArg e (funext fun a => Fin.ext (by match a with | ⟨0, _⟩ => rfl | ⟨1, _⟩ => rfl))

/-- A vector kept as one row and broadcast over the rows reads, at `(i, j)`, the vector at `j`. -/
theorem rowBroadcast_apply (v : FVec Ideal S512 .f32) (h1 : S512.ShapeCasts S1x512) (h2 : S1x512.Broadcasts S512x512)
    (i j : Fin 512) : broadcastTo S512x512 (shapeCast S1x512 v h1) h2 (ix2 i j) = v (ix1 j) :=
  (broadcastTo_1b_ab_apply _ h2 i j).trans (shapeCast_a_1a_apply v h1 0 j)

/-- A block times its own transpose, accumulated into zeros, at `(p, q)`: the sum over the depth of the products of
    rows `p` and `q`. -/
theorem gram_apply (v : FVec Ideal S512x4096 .bf16) (D : DotDims S512x4096 S512x4096 S512x512)
    (h1 : D.lhsContracting = [1]) (h2 : D.rhsContracting = [1]) (h3 : D.lhsNonContracting = [0])
    (h4 : D.rhsNonContracting = [0]) (h5 : D.lhsBatch = []) (h6 : D.rhsBatch = []) (p q : Fin 512) :
    matmul (F := Ideal) D none v v (constant S512x512 .f32 0x00000000#32) (ix2 p q)
      = ∑ k : Fin 4096, v (ix2 p k) * v (ix2 q k) :=
  (Ideal.matmul_constant_zero_apply D none v v (ix2 p q)).trans (Cert.LibDotT.sum_eq D h1 h2 h3 h4 h5 h6 v v p q)

/-- Weights times a tile, accumulated into zeros, at `(p, n)`. -/
theorem prod_apply (w : FVec Ideal S512x512 .bf16) (d : FVec Ideal S512x1024 .bf16) (D : DotDims S512x512 S512x1024 S512x1024)
    (h1 : D.lhsContracting = [1]) (h2 : D.rhsContracting = [0]) (h3 : D.lhsNonContracting = [0])
    (h4 : D.rhsNonContracting = [1]) (h5 : D.lhsBatch = []) (h6 : D.rhsBatch = []) (p : Fin 512) (n : Fin 1024) :
    matmul (F := Ideal) D none w d (constant S512x1024 .f32 0x00000000#32) (ix2 p n)
      = ∑ k : Fin 512, w (ix2 p k) * d (ix2 k n) :=
  (Ideal.matmul_constant_zero_apply D none w d (ix2 p n)).trans
    (Idealize.ShloMosaic.PlainDot.sum_eq D h1 h2 h3 h4 h5 h6 w d p n)

/-- The weights' term at `(i, j)`. -/
theorem weights_apply (x0 : Vec Ideal S1x512x4096 .f32) (i j : Fin 512) :
    k0_pay1 (F := Ideal) x0 (ix2 i j) = Spec.attn (fun i k => x0 (ix3 (0 : Fin 1) i k)) i j := by
  -- the source matrix, and the body's values in order
  let a : Fin 512 → Fin 4096 → EReal := fun p k => x0 (ix3 (0 : Fin 1) p k)
  let V16 : FVec Ideal S512x4096 .bf16 :=
    truncf .bf16 (shapeCast S512x4096 x0 shapeCasts_S1x512x4096_S512x4096) bitsLt_bf16_f32
  have hA : ∀ p k, V16 (ix2 p k) = a p k := fun p k => shapeCast_1ab_ab_apply x0 _ p k
  let V17 : FVec Ideal S512x512 .f32 :=
    matmul dot_S512x4096_S512x4096_S512x512_1_1_0_0_n_n none V16 V16 (constant S512x512 .f32 0x00000000#32)
  have hG : ∀ p q, V17 (ix2 p q) = Spec.gram a p q := fun p q =>
    (gram_apply V16 _ rfl rfl rfl rfl rfl rfl p q).trans (Finset.sum_congr rfl fun k _ => by rw [hA, hA])
  let V18 : FVec Ideal S512 .f32 :=
    multiReduction .maximumf [0] S512 V17 0xFF800000#32 reduces_S512x512_S512 (.inl rfl) rfl
  have hM : ∀ q, V18 (ix1 q) = Spec.colMax (Spec.gram a) q := fun q =>
    (colMax_apply V17 _ _ _ q).trans (congrArg (fun g => Spec.colMax g q) (funext fun p => funext fun q' => hG p q'))
  let V20 : FVec Ideal S512x512 .f32 :=
    broadcastTo S512x512 (shapeCast S1x512 V18 shapeCasts_S512_S1x512) broadcasts_S1x512_S512x512
  have hB : ∀ p q, V20 (ix2 p q) = Spec.colMax (Spec.gram a) q := fun p q =>
    (rowBroadcast_apply V18 _ _ p q).trans (hM q)
  let V22 : FVec Ideal S512x512 .f32 := exp (subf V17 V20)
  have hE : ∀ p q, V22 (ix2 p q) = Spec.ex (Spec.gram a) p q := fun p q => by
    show Ideal.exp (V17 (ix2 p q) - V20 (ix2 p q)) = _
    rw [hG, hB]; rfl
  let V23 : FVec Ideal S512 .f32 :=
    multiReduction .add [0] S512 V22 0x00000000#32 reduces_S512x512_S512 (.inl rfl) rfl
  have hS : ∀ q, V23 (ix1 q) = Spec.colSum (Spec.gram a) q := fun q =>
    (colSum_apply V22 _ _ _ q).trans (Finset.sum_congr rfl fun p _ => hE p q)
  let V25 : FVec Ideal S512x512 .f32 :=
    broadcastTo S512x512 (shapeCast S1x512 V23 shapeCasts_S512_S1x512) broadcasts_S1x512_S512x512
  have hB' : ∀ p q, V25 (ix2 p q) = Spec.colSum (Spec.gram a) q := fun p q =>
    (rowBroadcast_apply V23 _ _ p q).trans (hS q)
  show shapeCast S512x512 (divf V22 V25) shapeCasts_S512x512_S512x512 (ix2 i j) = _
  unfold Spec.attn
  refine (congrFun (shapeCast_self (divf V22 V25) shapeCasts_S512x512_S512x512) (ix2 i j)).trans ?_
  refine (Ideal.divf_def (φ := .f32) (x := V22 (ix2 i j)) (y := V25 (ix2 i j))).trans ?_
  rw [hE i j, hB' i j]

/-- The product's term at `(u, i, n)`. -/
theorem product_apply (w : Vec Ideal S512x512 .f32) (x1 : Vec Ideal S1x512x1024 .f32) (u : Fin 1) (i : Fin 512)
    (n : Fin 1024) :
    k0_pay2 (F := Ideal) w x1 (ix3 u i n)
      = (∑ j : Fin 512, w (ix2 i j) * x1 (ix3 (0 : Fin 1) j n)) * Ideal.ofBits .f32 0x3F800000#32 := by
  let V4 : FVec Ideal S512x512 .bf16 := truncf .bf16 w bitsLt_bf16_f32
  let V7 : FVec Ideal S512x1024 .bf16 :=
    truncf .bf16 (shapeCast S512x1024 x1 shapeCasts_S1x512x1024_S512x1024) bitsLt_bf16_f32
  have hD : ∀ k n, V7 (ix2 k n) = x1 (ix3 (0 : Fin 1) k n) := fun k n => shapeCast_1ab_ab_apply x1 _ k n
  let V8 : FVec Ideal S512x1024 .f32 :=
    matmul dot_S512x512_S512x1024_S512x1024_1_0_0_1_n_n none V4 V7 (constant S512x1024 .f32 0x00000000#32)
  have hP : V8 (ix2 i n) = ∑ j : Fin 512, w (ix2 i j) * x1 (ix3 (0 : Fin 1) j n) :=
    (prod_apply V4 V7 _ rfl rfl rfl rfl rfl rfl i n).trans (Finset.sum_congr rfl fun k _ => by rw [hD]; rfl)
  let V10 : FVec Ideal S512x1024 .f32 := mulf V8 (broadcast S512x1024 (Scalar.ofBits .f32 0x3F800000#32))
  show shapeCast S1x512x1024 V10 shapeCasts_S512x1024_S1x512x1024 (ix3 u i n) = _
  refine (shapeCast_ab_1ab_apply V10 _ u i n).trans ?_
  refine (Ideal.mulf_def (φ := .f32) (x := V8 (ix2 i n)) (y := Ideal.ofBits .f32 0x3F800000#32)).trans ?_
  rw [hP]

end Cert.KernelIdeal.Payload

end
-- ==== Proof.Blocks.lean ====
/-
  From the grid's points to the whole result array.

  The grid has 32 points: point `t` is batch entry `t / 4`, position tile `t % 4` (1024 positions each). The source
  window's block at `t` is the whole matrix of batch `t / 4`; the destination's and the result's are that batch's
  columns `1024 · (t % 4) …`. The weights are computed at a batch's first tile and carried to its other three, so after
  EVERY point the carried buffer holds the weights of that point's batch (induction on the point: a first tile computes
  them from its own source block; a later tile keeps what the tile before left, which is of the same batch). Hence what
  point `t` writes back is the specification restricted to its block, the 32 blocks cover the array, and the array
  ends at the specification of the two flat arrays as the region found them.
-/
import proofs.«105036_j75883482186328_2_alg».proof.Proof.Gen.KernelIdeal.Frame
import proofs.«105036_j75883482186328_2_alg».proof.Proof.Spec
import proofs.«105036_j75883482186328_2_alg».proof.Proof.Pieces
import proofs.«105036_j75883482186328_2_alg».proof.Proof.Payload
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The three windows' block indices at point `t`: batch `t / 4`; all channels; for the source all positions, for the
    destination and the result position tile `t % 4`. Decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = t.val % 4 :=
  (by decide +kernel : ∀ t : Fin grid0.N, _)

/-- The source block at point `t` is the matrix of batch `t / 4` of the flat source. -/
theorem src_blk (c : Dev nD) (t : Fin cfg0.N) (b : Fin 8) (hb : b.val = t.val / 4) (i : Fin 512) (k : Fin 4096) :
    iblk m c 0 t (ix3 (0 : Fin 1) i k) = V m c main_v0 (ix3 b i k) := by
  show V m c main_v0 (((cfg0.win 0).blk t).view.emb (ix3 (0 : Fin 1) i k)) = V m c main_v0 (ix3 b i k)
  refine congrArg (V m c main_v0) ?_
  obtain ⟨e0, e1, e2, -, -, -, -, -, -⟩ := idx_facts t
  funext a; apply Fin.ext
  match a with
  | ⟨0, _⟩ => show win0_0.index t (0 : Fin 3) * 1 + 1 * 0 = b.val; omega
  | ⟨1, _⟩ => show win0_0.index t (1 : Fin 3) * 512 + 1 * i.val = i.val; omega
  | ⟨2, _⟩ => show win0_0.index t (2 : Fin 3) * 4096 + 1 * k.val = k.val; omega

/-- The destination block at point `t` is columns `1024 · (t % 4) + n` of batch `t / 4` of the flat destination. -/
theorem dst_blk (c : Dev nD) (t : Fin cfg0.N) (b : Fin 8) (hb : b.val = t.val / 4) (j : Fin 512) (n : Fin 1024)
    (n' : Fin 4096) (hn : n'.val = t.val % 4 * 1024 + n.val) :
    iblk m c 1 t (ix3 (0 : Fin 1) j n) = V m c main_v1 (ix3 b j n') := by
  show V m c main_v1 (((cfg0.win 1).blk t).view.emb (ix3 (0 : Fin 1) j n)) = V m c main_v1 (ix3 b j n')
  refine congrArg (V m c main_v1) ?_
  obtain ⟨-, -, -, e0, e1, e2, -, -, -⟩ := idx_facts t
  funext a; apply Fin.ext
  match a with
  | ⟨0, _⟩ => show win0_1.index t (0 : Fin 3) * 1 + 1 * 0 = b.val; omega
  | ⟨1, _⟩ => show win0_1.index t (1 : Fin 3) * 512 + 1 * j.val = j.val; omega
  | ⟨2, _⟩ => show win0_1.index t (2 : Fin 3) * 1024 + 1 * n.val = n'.val; omega

/-- The weights of batch `b`, as the contents of the carried buffer. -/
def weights (c : Dev nD) (b : Fin 8) : Vec Ideal S512x512 .f32 :=
  fun y => Spec.attn (fun i k => V m c main_v0 (ix3 b i k)) (y 0) (y 1)

/-- The weights' term of the source block at point `t` is the weights of batch `t / 4`. -/
theorem weights_blk (c : Dev nD) (t : Fin cfg0.N) (b : Fin 8) (hb : b.val = t.val / 4) :
    k0_pay1 (F := Ideal) (iblk m c 0 t) = weights m c b := by
  funext y
  obtain ⟨i, j, rfl⟩ : ∃ (i j : Fin 512), y = ix2 i j := ⟨y 0, y 1, eq_ix2 y⟩
  refine (Payload.weights_apply (iblk m c 0 t) i j).trans ?_
  show Spec.attn _ i j = Spec.attn _ i j
  exact congrArg (fun a => Spec.attn a i j) (funext fun p => funext fun k => src_blk m c t b hb p k)

/-- After every point the carried buffer holds the weights of that point's batch. -/
theorem carried_eq (c : Dev nD) : ∀ (n : ℕ) (h : n < cfg0.N) (b : Fin 8), b.val = n / 4 → (outsAt0 m c n h).2 = weights m c b
  | 0, h, b, hb => by
    rw [outsAt0_A m c ⟨0, h⟩ rfl]
    dsimp only
    refine (Pieces.carried_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (iblk m c 0 ⟨0, h⟩) (iblk m c 1 ⟨0, h⟩)).trans ?_
    exact weights_blk m c ⟨0, h⟩ b hb
  | n + 1, h, b, hb => by
    by_cases h0 : (n + 1) % 4 = 0
    · rw [outsAt0_A m c ⟨n + 1, h⟩ h0]
      dsimp only
      refine (Pieces.carried_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) ((hcond0_0 ⟨n + 1, h⟩).mpr h0) (iblk m c 0 ⟨n + 1, h⟩) (iblk m c 1 ⟨n + 1, h⟩)).trans ?_
      exact weights_blk m c ⟨n + 1, h⟩ b hb
    · rw [outsAt0_B m c ⟨n + 1, h⟩ h0]
      dsimp only
      unfold sout0_B_0
      exact carried_eq c n (Nat.lt_of_succ_lt h) b (by omega)

/-- After every point the output tile holds the product of its batch's weights with its destination block. -/
theorem tile_eq (c : Dev nD) (t : Fin cfg0.N) (b : Fin 8) (hb : b.val = t.val / 4) :
    (outsAt0 m c t.val t.isLt).1 = k0_pay2 (F := Ideal) (weights m c b) (iblk m c 1 t) := by
  by_cases h0 : t.val % 4 = 0
  · rw [outsAt0_A m c t h0]
    dsimp only
    refine (Pieces.tile_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans ?_
    exact congrArg (fun w => k0_pay2 (F := Ideal) w (iblk m c 1 t)) (weights_blk m c t b hb)
  · rw [outsAt0_B m c t h0]
    dsimp only
    refine (Pieces.tile_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2).trans ?_
    exact congrArg (fun w => k0_pay2 (F := Ideal) w (iblk m c 1 t))
      (carried_eq m c (t.val - 1) (Nat.lt_of_le_of_lt (Nat.sub_le _ _) t.isLt) b (by omega))

/-- What point `t` writes back is the specification, of the flat arrays as the region finds them, on its block. -/
theorem flushed_eq (c : Dev nD) (t : Fin cfg0.N) :
    (dats m 0 c).flushed 2 t
      = ((cfg0.win 2).blk t).view.read (Elt Ideal) (Spec.G (V m c main_v0) (V m c main_v1)) := by
  show (cfg0.win 2).cut (grid0.coords t) ((dats m 0 c).after 2 t) = _
  rw [after0_2]
  have hN : cfg0.N = 32 := N_0
  have ht : t.val < 32 := lt_of_lt_of_eq t.isLt hN
  rw [tile_eq m c t ⟨t.val / 4, by omega⟩ rfl]
  funext y
  obtain ⟨u, i, n, rfl⟩ : ∃ (u : Fin 1) (i : Fin 512) (n : Fin 1024), y = ix3 u i n := ⟨y 0, y 1, y 2, eq_ix3 y⟩
  obtain ⟨-, -, -, -, -, -, e0, e1, e2⟩ := idx_facts t
  have hn : t.val % 4 * 1024 + n.val < 4096 := by have := n.isLt; omega
  have hemb : ((cfg0.win 2).blk t).view.emb (ix3 u i n)
      = ix3 (⟨t.val / 4, by omega⟩ : Fin 8) i (⟨t.val % 4 * 1024 + n.val, hn⟩ : Fin 4096) := by
    funext a; apply Fin.ext
    match a with
    | ⟨0, _⟩ => show win0_2.index t (0 : Fin 3) * 1 + 1 * u.val = t.val / 4; have := u.isLt; omega
    | ⟨1, _⟩ => show win0_2.index t (1 : Fin 3) * 512 + 1 * i.val = i.val; omega
    | ⟨2, _⟩ => show win0_2.index t (2 : Fin 3) * 1024 + 1 * n.val = t.val % 4 * 1024 + n.val; omega
  show k0_pay2 (F := Ideal) (weights m c ⟨t.val / 4, by omega⟩) (iblk m c 1 t) (ix3 u i n)
    = Spec.G (V m c main_v0) (V m c main_v1) (((cfg0.win 2).blk t).view.emb (ix3 u i n))
  rw [hemb, Spec.G_ix3]
  unfold Spec.outAt
  refine (Payload.product_apply (weights m c ⟨t.val / 4, by omega⟩) (iblk m c 1 t) u i n).trans ?_
  refine congrArg (· * _) (Finset.sum_congr rfl fun j _ => ?_)
  rw [dst_blk m c t ⟨t.val / 4, by omega⟩ rfl j n ⟨t.val % 4 * 1024 + n.val, hn⟩ rfl]
  rfl

/-- An index of the array is in point `t`'s block iff each coordinate is in the block's range on its axis. -/
theorem mem_blk (t : Fin cfg0.N) (i : S8x512x4096.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v2).slice (win0_2.rect t)).set ↔ _
  rw [View.set_slice_whole, Rect.mem_set_unit]
  exact Iff.rfl

/-- Every index of the array is in the block of the point of its batch and its position tile. -/
theorem cover (i : S8x512x4096.Idx) :
    ∃ t : Fin cfg0.N, (cfg0.win 2).flush t = true ∧ i ∈ ((cfg0.win 2).blk t).view.set := by
  have h0 : (i 0).val < 8 := (i 0).isLt
  have h1 : (i 1).val < 512 := (i 1).isLt
  have h2 : (i 2).val < 4096 := (i 2).isLt
  have hN : cfg0.N = 32 := N_0
  have ht : (i 0).val * 4 + (i 2).val / 1024 < cfg0.N := lt_of_lt_of_eq (by omega) hN.symm
  refine ⟨⟨(i 0).val * 4 + (i 2).val / 1024, ht⟩, flush0_2 _, ?_⟩
  rw [mem_blk]
  obtain ⟨-, -, -, -, -, -, e0, e1, e2⟩ := idx_facts ⟨(i 0).val * 4 + (i 2).val / 1024, ht⟩
  dsimp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 512 ≤ (i 1).val ∧ (i 1).val < win0_2.index _ (1 : Fin 3) * 512 + 512; omega
  | ⟨2, _⟩ => show win0_2.index _ (2 : Fin 3) * 1024 ≤ (i 2).val ∧ (i 2).val < win0_2.index _ (2 : Fin 3) * 1024 + 1024; omega

/-- So the result array ends at the specification of the two flat arrays as the region found them. -/
theorem final (c : Dev nD) : (dats m 0 c).arrAt 2 cfg0.N = Spec.G (V m c main_v0) (V m c main_v1) :=
  (dats m 0 c).arrAt_eq_of_cover 2 (Spec.G (V m c main_v0) (V m c main_v1)) (fun t _ => flushed_eq m c t) cover

end Cert.KernelIdeal.KValue

end
-- ==== Proof.KernelRun.lean ====
/-
  The idealized kernel's run, read: its result is the specification of the two arguments, flattened and reshaped back.

  Before the region two reshapes flatten the arguments' last two axes, so the flat arrays the region finds are those
  reshapes of the launch contents; the region leaves the flat result at the specification of them; after the region
  one reshape gives the result its four axes back. The arguments are never written.
-/
import proofs.«105036_j75883482186328_2_alg».proof.Proof.Blocks
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The flat source the region finds is the first argument with its last two axes merged. -/
theorem V_src (c : Dev nD) : (V m c main_v0 : S8x512x4096.Idx → EReal)
    = shapeCast S8x512x4096 (m ((c : Thread nD τ).loc main_arg0)) shapeCasts_S8x512x64x64_S8x512x4096 := by
  show StableHlo.after hostOps0 (fun b => m (c, b)) (Proc.devRef .tc main_v0) = _
  after_results
  rfl

/-- The flat destination the region finds is the second argument with its last two axes merged. -/
theorem V_dst (c : Dev nD) : (V m c main_v1 : S8x512x4096.Idx → EReal)
    = shapeCast S8x512x4096 (m ((c : Thread nD τ).loc main_arg1)) shapeCasts_S8x512x64x64_S8x512x4096 := by
  show StableHlo.after hostOps0 (fun b => m (c, b)) (Proc.devRef .tc main_v1) = _
  after_results
  rfl

/-- The line after the region leaves, in the result buffer, the region's flat result with its last axis split. -/
theorem tail_eq (c : Dev nD) :
    Pipeline.afterTail₀ cfgs (dats m) 0 (V0 m) [hostOps1] c main_v3
      = shapeCast S8x512x64x64 ((dats m 0 c).arrAt 2 cfg0.N) shapeCasts_S8x512x4096_S8x512x64x64 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [e]
  rfl

/-- The specification of the two arguments: each flattened, the flat result given its four axes back. -/
def result (c : Dev nD) : Buf (Elt Ideal) ((c : Thread nD τ).loc main_v3) :=
  shapeCast S8x512x64x64
    (Spec.G (shapeCast S8x512x4096 (m ((c : Thread nD τ).loc main_arg0)) shapeCasts_S8x512x64x64_S8x512x4096)
      (shapeCast S8x512x4096 (m ((c : Thread nD τ).loc main_arg1)) shapeCasts_S8x512x64x64_S8x512x4096))
    shapeCasts_S8x512x4096_S8x512x64x64

/-- Every weakly fair execution of the idealized kernel terminates with its result at the specification and its
    arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans
          ((tail_eq m c).trans (by rw [final m c, V_src m c, V_dst m c]; rfl)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefSide.lean ====
/-
  The reference computes the specification.

  Read one operation at a time, on the extended reals, the reference's flat result (before its last reshape) at
  batch `b`, channel `i`, position `n` is: the batched Gram matrix of the flattened source; its maximum over the row
  index (a fold of `max` from −∞, and a further `max` with −∞ that changes nothing); the exponential of the difference;
  the sum over the row index from zero; the quotient; the batched product with the flattened destination; and one times
  that. This is the specification's `outAt`, the constant one on the other side of the product.
-/
import proofs.«105036_j75883482186328_2_alg».proof.Proof.Gen.ReferenceIdeal.Read
import proofs.«105036_j75883482186328_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-- A fold of `max` is at least its starting value, so a further `max` with that value changes nothing. -/
theorem max_fold_self {ι : Type} (s : Finset ι) (b : EReal) (f : ι → EReal) : max b (s.fold max b f) = s.fold max b f :=
  max_eq_right ((Finset.le_fold_max _).mpr (Or.inl le_rfl))

/-- The host's maximum over the row index of a batched square array, from −∞, at batch `b` and column `j`: the fold
    of `max` over the column's entries. -/
theorem hostColMax (x : FVec Ideal S8x512x512 .f32) (h' : S8x512x512.ReducesTo [1] S8x512) (hu : 0 < S_.numel)
    (b : Fin 8) (j : Fin 512) :
    Host.reduce FloatOps.maximumf x (constant (F := Ideal) S_ .f32 0xFF800000#32) h' hu (ix2 b j)
      = (Finset.univ : Finset (Fin 512)).fold max (Ideal.ofBits .f32 0xFF800000#32) (fun i => x (ix3 b i j)) := by
  have h : S8x512x512.Reduces [1] S8x512 := by decide
  rw [Host.reduce_eq_fold_single FloatOps.maximumf x _ h' h hu]
  have e : (x ∘ h.lift (ix2 b j)) = fun i : Fin 512 => x (ix3 b i j) :=
    funext fun i => congrArg x (show h.lift (ix2 b j) i = ix3 b i j from funext fun a => Fin.ext (by match a with | ⟨0, _⟩ => rfl | ⟨1, _⟩ => rfl | ⟨2, _⟩ => rfl))
  rw [e]; rfl

variable (x0 x1 : (⟨S8x512x64x64, .f32⟩ : BufTy).Contents (Elt Ideal))

/-- Batch `b` of the flattened source, as a matrix. -/
abbrev src (b : Fin 8) : Fin 512 → Fin 4096 → EReal := fun i k => val_main_v0 (F := Ideal) x0 (ix3 b i k)

theorem gram_eq (b : Fin 8) (i j : Fin 512) :
    val_main_v2 (F := Ideal) x0 (ix3 b i j) = Spec.gram (src x0 b) i j := by
  unfold Spec.gram
  refine (val_main_v2_apply x0 (ix3 b i j)).trans (Finset.sum_congr rfl fun k _ => ?_)
  rw [show lidx_main_v2 (ix3 b i j) k = ix3 b i k from funext fun a => Fin.ext (by match a with | ⟨0, _⟩ => rfl | ⟨1, _⟩ => rfl | ⟨2, _⟩ => rfl),
    show ridx_main_v2 (ix3 b i j) k = ix3 b j k from funext fun a => Fin.ext (by match a with | ⟨0, _⟩ => rfl | ⟨1, _⟩ => rfl | ⟨2, _⟩ => rfl)]

theorem colMax_eq (b : Fin 8) (j : Fin 512) :
    val_main_v3 (F := Ideal) x0 (ix2 b j) = Spec.colMax (Spec.gram (src x0 b)) j := by
  unfold val_main_v3 val_main_cst Spec.colMax
  refine (hostColMax (val_main_v2 (F := Ideal) x0) _ _ b j).trans ?_
  exact congrArg (fun g : Fin 512 → EReal => (Finset.univ : Finset (Fin 512)).fold max (Ideal.ofBits .f32 0xFF800000#32) g)
    (funext fun i => gram_eq x0 b i j)

theorem colMax_eq' (b : Fin 8) (j : Fin 512) :
    val_main_v5 (F := Ideal) x0 (ix2 b j) = Spec.colMax (Spec.gram (src x0 b)) j := by
  refine (val_main_v5_apply x0 (ix2 b j)).trans ?_
  rw [val_main_v4_apply, val_main_cst_0_apply, colMax_eq]
  refine (Ideal.maximumf_def (φ := .f32) _ _).trans ?_
  unfold Spec.colMax
  exact max_fold_self _ _ _

theorem colMax_bcast (b : Fin 8) (i j : Fin 512) :
    val_main_v7 (F := Ideal) x0 (ix3 b i j) = Spec.colMax (Spec.gram (src x0 b)) j := by
  rw [val_main_v7_apply, val_main_v6_apply]
  exact (congrArg (val_main_v5 (F := Ideal) x0)
    (show idx_main_v6 (idx_main_v7 (ix3 b i j)) = ix2 b j from funext fun a => Fin.ext (by match a with | ⟨0, _⟩ => rfl | ⟨1, _⟩ => rfl))).trans (colMax_eq' x0 b j)

theorem ex_eq (b : Fin 8) (i j : Fin 512) :
    val_main_v9 (F := Ideal) x0 (ix3 b i j) = Spec.ex (Spec.gram (src x0 b)) i j := by
  unfold Spec.ex
  rw [val_main_v9_apply, val_main_v8_apply, gram_eq, colMax_bcast]
  exact (Ideal.hostUnary_exp_def (φ := .f32) _).trans (congrArg Ideal.exp (Ideal.subf_def (φ := .f32) _ _))

theorem colSum_eq (b : Fin 8) (j : Fin 512) :
    val_main_v10 (F := Ideal) x0 (ix2 b j) = Spec.colSum (Spec.gram (src x0 b)) j := by
  unfold Spec.colSum
  rw [val_main_v10_apply, val_main_cst_1_apply, Ideal.ofBits_def, Ideal.ofBits_zero_f32, zero_add]
  exact Finset.sum_congr rfl fun k _ => (congrArg (val_main_v9 (F := Ideal) x0)
    (show idx_main_v10 (ix2 b j) k = ix3 b k j from funext fun a => Fin.ext (by match a with | ⟨0, _⟩ => rfl | ⟨1, _⟩ => rfl | ⟨2, _⟩ => rfl))).trans (ex_eq x0 b k j)

theorem colSum_bcast (b : Fin 8) (i j : Fin 512) :
    val_main_v12 (F := Ideal) x0 (ix3 b i j) = Spec.colSum (Spec.gram (src x0 b)) j := by
  rw [val_main_v12_apply, val_main_v11_apply]
  exact (congrArg (val_main_v10 (F := Ideal) x0)
    (show idx_main_v11 (idx_main_v12 (ix3 b i j)) = ix2 b j from funext fun a => Fin.ext (by match a with | ⟨0, _⟩ => rfl | ⟨1, _⟩ => rfl))).trans (colSum_eq x0 b j)

theorem attn_eq (b : Fin 8) (i j : Fin 512) :
    val_main_v13 (F := Ideal) x0 (ix3 b i j) = Spec.attn (src x0 b) i j := by
  unfold Spec.attn
  rw [val_main_v13_apply, ex_eq, colSum_bcast]
  exact Ideal.hostDivf_def (φ := .f32) _ _

/-- The reference's flat result is the specification of its two flattened arguments. -/
theorem flat_eq :
    val_main_v16 (F := Ideal) x0 x1 = Spec.G (val_main_v0 (F := Ideal) x0) (val_main_v1 (F := Ideal) x1) := by
  funext y
  obtain ⟨b, i, n, rfl⟩ : ∃ (b : Fin 8) (i : Fin 512) (n : Fin 4096), y = ix3 b i n := ⟨y 0, y 1, y 2, eq_ix3 y⟩
  rw [Spec.G_ix3]
  unfold Spec.outAt
  rw [val_main_v16_apply, val_main_v15_apply, val_main_cst_2_apply, val_main_v14_apply, Ideal.ofBits_def]
  refine (Ideal.mulf_def (φ := .f32) _ _).trans ((mul_comm _ _).trans (congrArg (· * _) ?_))
  refine Finset.sum_congr rfl fun k _ => ?_
  rw [show lidx_main_v14 (ix3 b i n) k = ix3 b i k from funext fun a => Fin.ext (by match a with | ⟨0, _⟩ => rfl | ⟨1, _⟩ => rfl | ⟨2, _⟩ => rfl),
    show ridx_main_v14 (ix3 b i n) k = ix3 b k n from funext fun a => Fin.ext (by match a with | ⟨0, _⟩ => rfl | ⟨1, _⟩ => rfl | ⟨2, _⟩ => rfl), attn_eq]

/-- So the reference's result is the specification, reshaped. -/
theorem result_eq :
    val_main_v17 (F := Ideal) x0 x1
      = shapeCast S8x512x64x64 (Spec.G (shapeCast S8x512x4096 x0 shapeCasts_S8x512x64x64_S8x512x4096)
          (shapeCast S8x512x4096 x1 shapeCasts_S8x512x64x64_S8x512x4096)) shapeCasts_S8x512x4096_S8x512x64x64 := by
  unfold val_main_v17
  rw [flat_eq]
  rfl

end Cert.ReferenceIdeal.RefValue

end
-- ==== Proof.lean ====
/-
  A fused cross-attention kernel against its plain reference, on the extended reals.

  Both programs take a source and a destination of shape [8, 512, 64, 64], merge the last two axes (4096 positions),
  and per batch entry form the Gram matrix of the source's 512 channel rows, normalise each of its COLUMNS over the row
  index (maximum from −∞, exponential of the difference, sum, quotient), multiply the weights into the destination, scale
  by the constant one and split the positions back into 64 × 64.
  The reference does this with two batched products and whole-array reductions. The kernel walks a grid of 8 batch
  entries by 4 position tiles: at a batch's first tile it computes the 512 × 512 weights from the whole source block into
  a buffer it keeps, and at every tile multiplies the kept weights into that tile's 1024 destination columns.
  On the extended reals the two are the same function of the arguments, index by index: a change of float format is the
  identity, a product accumulated into zeros is the plain sum over the contraction index, the two maxima are the same
  fold, `x · 1 = 1 · x`, and a maximum with −∞ of a fold that starts at −∞ is that fold. No finiteness is used.

  The specification is Proof/Spec.lean; the reference is it (Proof/RefSide.lean, over the reference's run read one
  operation at a time); the kernel's two pure terms at an index (Proof/Payload.lean), what one run of the body leaves
  (Proof/Pieces.lean), the carry across a batch's tiles and the cover of the result by the 32 blocks
  (Proof/Blocks.lean), and the reshapes around the region (Proof/KernelRun.lean) make the kernel it too.
  The word-level kernel's idealization rewrote no operation, so that claim is `True`.
-/
import proofs.«105036_j75883482186328_2_alg».proof.Defs
import proofs.«105036_j75883482186328_2_alg».proof.Proof.Gen.Kernel
import proofs.«105036_j75883482186328_2_alg».proof.Proof.Gen.Kernel.Skeleton
import proofs.«105036_j75883482186328_2_alg».proof.Proof.Gen.Kernel.Launch
import proofs.«105036_j75883482186328_2_alg».proof.Proof.Gen.Kernel.Points
import proofs.«105036_j75883482186328_2_alg».proof.Proof.Gen.Kernel.Frame
import proofs.«105036_j75883482186328_2_alg».proof.Proof.Gen.KernelIdeal
import proofs.«105036_j75883482186328_2_alg».proof.Proof.Gen.KernelIdeal.Skeleton
import proofs.«105036_j75883482186328_2_alg».proof.Proof.Gen.KernelIdeal.Launch
import proofs.«105036_j75883482186328_2_alg».proof.Proof.Gen.KernelIdeal.Points
import proofs.«105036_j75883482186328_2_alg».proof.Proof.Gen.KernelIdeal.Frame
import proofs.«105036_j75883482186328_2_alg».proof.Proof.Gen.ReferenceIdeal
import proofs.«105036_j75883482186328_2_alg».proof.Proof.Gen.ReferenceIdeal.Run
import proofs.«105036_j75883482186328_2_alg».proof.Proof.Gen.ReferenceIdeal.Read
import proofs.«105036_j75883482186328_2_alg».proof.Proof.Gen.Pre_finite_inputs
import proofs.«105036_j75883482186328_2_alg».proof.Proof.KernelRun
import proofs.«105036_j75883482186328_2_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end at the specification of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v17_eq _ _).trans (Cert.ReferenceIdeal.RefValue.result_eq _ _)).trans ?_
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
